-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S100000x256 : Shape := ⟨2, ![100000, 256]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x256 .f32) (main_arg1 : FVec F S100000x256 .f32) (main_arg2 : FVec F S1024 .f32) (main_arg3 : IVec S1024 32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S1024x256 : Shape := ⟨2, ![1024, 256]⟩
abbrev S100000x256 : Shape := ⟨2, ![100000, 256]⟩
abbrev S1024 : Shape := ⟨1, ![1024]⟩
abbrev S1024x100000 : Shape := ⟨2, ![1024, 100000]⟩
abbrev S2048x256 : Shape := ⟨2, ![2048, 256]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S100000x256, .f32⟩
  | .hbm, ⟨2, _⟩ => ⟨S1024, .f32⟩
  | .hbm, ⟨3, _⟩ => ⟨S1024, .i32⟩
  | .hbm, ⟨4, _⟩ => ⟨S1024x256, .bf16⟩
  | .hbm, ⟨5, _⟩ => ⟨S1024x100000, .f32⟩
  | .local _ .vmem, ⟨0, _⟩ => ⟨S1024x256, .bf16⟩
  | .local _ .vmem, ⟨1, _⟩ => ⟨S2048x256, .f32⟩
  | .local _ .vmem, ⟨2, _⟩ => ⟨S2048x256, .f32⟩
  | .local _ .vmem, ⟨3, _⟩ => ⟨S1024x2048, .f32⟩
  | .local _ .vmem, ⟨4, _⟩ => ⟨S1024x2048, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .bf16 = 32 ∨ (Rect.block (s := S1024x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x256.size a < S100000x256.size a
  hwx0_1 : ∀ i : grid0.Coords, EltTy.bits .f32 = 32 ∨ (Rect.unit (s := S100000x256) (fun a => cc0_transform_1 i a * S2048x256.size a) (fun a => (Pipeline.Clip.of (cc0_transform_1 i a) (S2048x256.size a) (S100000x256.size a)).extent (S2048x256.size a)) fun a => Pipeline.Clip.inb (Pipeline.Clip.ok_of (hstart0_1 i a))).WholeWords (EltTy.packing .f32)
  hwxs0_1 : ∀ i : grid0.Coords, EltTy.bits .f32 = 32 ∨ (Rect.unit (s := S2048x256) (fun _ => 0) (fun a => (Pipeline.Clip.of (cc0_transform_1 i a) (S2048x256.size a) (S100000x256.size a)).extent (S2048x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x100000.size a
  hwx0_2 : ∀ i : grid0.Coords, EltTy.bits .f32 = 32 ∨ (Rect.unit (s := S1024x100000) (fun a => cc0_transform_2 i a * S1024x2048.size a) (fun a => (Pipeline.Clip.of (cc0_transform_2 i a) (S1024x2048.size a) (S1024x100000.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S1024x100000.size a)).extent (S1024x2048.size a)) fun a => (Nat.zero_add _).trans_le (Pipeline.Clip.extent_le (Pipeline.Clip.ok_of (hstart0_2 i a)))).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x256 : Shape := ⟨2, ![1024, 256]⟩
abbrev S100000x256 : Shape := ⟨2, ![100000, 256]⟩
abbrev S1024 : Shape := ⟨1, ![1024]⟩
abbrev S256x100000 : Shape := ⟨2, ![256, 100000]⟩
abbrev S1024x100000 : Shape := ⟨2, ![1024, 100000]⟩

abbrev nBuf : Space → Nat
  | .hbm => 6
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S100000x256, .f32⟩
  | .hbm, ⟨2, _⟩ => ⟨S1024, .f32⟩
  | .hbm, ⟨3, _⟩ => ⟨S1024, .i32⟩
  | .hbm, ⟨4, _⟩ => ⟨S256x100000, .f32⟩
  | .hbm, ⟨5, _⟩ => ⟨S1024x100000, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  transposes_S100000x256_S256x100000_1_0 : S100000x256.Transposes [1, 0] S256x100000
  dot_S1024x256_S256x100000_S1024x100000_1_0_0_1_n_n_wf : DotDims.WF S1024x256 S256x100000 S1024x100000 [1] [0] [0] [1] [] []

variable [Facts₀]

def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf

class Facts : Prop extends Facts₀ where

variable [Facts]
-- ==== Proof.KernelTile.lean ====
/-
  One grid point of the tiled product, as a program on three staging buffers.

  At a grid point the body reads the whole tile of memory-bank rows (2048 rows of 256 features) from its buffer,
  reads the whole block of 1024 queries from its buffer, and overwrites the whole 1024 by 2048 result buffer with
  one value: the product of the queries with the rounded tile, every row of the tile contracted against every query
  over the 256 features. It reads the result buffer once before the store and uses nothing of what it read. So,
  whatever the three buffers hold, the body runs to the end, leaves the two operand buffers as it found them, and
  leaves in the result buffer that one value of the two operands. This holds for every reading of the floats.
-/
import proofs.«114694_j44504451121873_2_alg».proof.Proof.Gen.Kernel.Frame
import proofs.«114694_j44504451121873_2_alg».proof.Proof.Gen.Kernel.Skeleton
import Idealize.ShloMosaic.Lib.Pipeline.Value

set_option maxRecDepth 16384

noncomputable section

namespace Cert.Kernel.Tile

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole result buffer, as the rectangle the body's one store writes through. -/
abbrev whole2 : Rect S1024x2048 := Rect.unit (s := S1024x2048) ![0, 0] S1024x2048.size inb_S1024x2048_S1024x2048_0_0
/-- The whole tile of bank rows, as the rectangle the body loads through. -/
abbrev whole1 : Rect S2048x256 := Rect.unit (s := S2048x256) ![0, 0] S2048x256.size inb_S2048x256_S2048x256_0_0
/-- The whole block of queries, as the rectangle the body loads through. -/
abbrev whole0 : Rect S1024x256 := Rect.unit (s := S1024x256) ![0, 0] S1024x256.size inb_S1024x256_S1024x256_0_0

/-- The offsets of the three rectangles are zero on both axes. -/
theorem zero_offsets : (![0, 0] : Fin 2 → Nat) = fun _ => 0 := funext fun a => by fin_cases a <;> rfl

/-- What the result buffer holds after the body, as the store leaves it: one piece, the whole buffer, whose value
    is the product of the loaded queries and the loaded tile. -/
def stored (q : Vec F S1024x256 .bf16) (b : Vec F S2048x256 .f32) : Vec F S1024x2048 .f32 :=
  View.canon [⟨whole2, k0_pay1 (View.ld b whole1) (View.ld q whole0)⟩]

/-- The one piece is the whole buffer and the loads are whole, so what the store leaves is the product of the two
    buffers' contents. -/
theorem stored_eq (q : Vec F S1024x256 .bf16) (b : Vec F S2048x256 .f32) : stored q b = k0_pay1 b q := by
  unfold stored
  rw [View.canon_unit_zero zero_offsets]
  rw [View.ld_unit_zero (S := S2048x256) zero_offsets, View.ld_unit_zero (S := S1024x256) zero_offsets]

/-- Every cell of the result buffer lies in the stored piece. -/
theorem stored_covers (p : Vec F S1024x2048 .f32) (y : S1024x2048.Idx) :
    ∃ pc ∈ ([⟨whole2, p⟩] : List (View.Piece (Elt F) S1024x2048 .f32)), y ∈ pc.1.set :=
  ⟨_, List.mem_singleton_self _, View.mem_set_unit_zero zero_offsets inb_S1024x2048_S1024x2048_0_0 y⟩

set_option maxHeartbeats 1000000 in
/-- The body on three whole staging buffers — the queries' at contents q, the tile's at contents b, the result's at
    anything — runs to the end with the first two as they were and the result's at the product of q and b. -/
theorem run (c : Dev nD) (E : Set ℕ) (i : grid0.Coords)
    (arg1 : Memref sig .tc .vmem S1024x256 .bf16) (harg1 : arg1.IsWhole)
    (arg2 : Memref sig .tc .vmem S2048x256 .f32) (harg2 : arg2.IsWhole)
    (arg3 : Memref sig .tc .vmem S1024x2048 .f32) (harg3 : arg3.IsWhole)
    (q : Vec F S1024x256 .bf16) (b : Vec F S2048x256 .f32) (K : PUnit → sProp 𝕄) :
    iprop(owns (c : Thread nD τ) arg1 fullShare q ∗ owns (c : Thread nD τ) arg2 fullShare b ∗ (∃ d, owns (c : Thread nD τ) arg3 fullShare d)
        ∗ (iprop(owns (c : Thread nD τ) arg1 fullShare q ∗ owns (c : Thread nD τ) arg2 fullShare b ∗ owns (c : Thread nD τ) arg3 fullShare (k0_pay1 b q)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (stored_covers _)).trans (stored_eq _ _)

end Cert.Kernel.Tile

end
-- ==== Proof.KernelFrame.lean ====
/-
  The word-level program runs to the end and leaves its four argument arrays as they were.

  The claim says nothing of the result array, and the body at a grid point runs whatever its three staging buffers
  hold: it loads two of them whole, stores the third whole, and waits for nothing. So the proof states no contents for
  any staging buffer after the body: each is handed back holding something. The pipeline around the body then runs
  through its 49 points; the bank, an input, is never written back to, and the other three arguments are not arrays of
  the pipeline at all (the queries reach it only through their rounded copy), so each ends as the region found it, and
  the one operation before the region writes none of them.
-/
import proofs.«114694_j44504451121873_2_alg».proof.Proof.KernelTile
import proofs.«114694_j44504451121873_2_alg».proof.Proof.Gen.Kernel.Frame
import proofs.«114694_j44504451121873_2_alg».proof.Proof.Gen.Kernel.Launch
import proofs.«114694_j44504451121873_2_alg».proof.Proof.Gen.Kernel.Points
import Idealize.ShloMosaic.Lib.Pipeline.Frame
import Idealize.ShloMosaic.Lib.Pipeline.Kit

set_option maxRecDepth 16384

noncomputable section

namespace Cert.Kernel.Unchanged

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core c: the arrays as the region finds them; of what the body leaves in a staging buffer,
    nothing; the invariant between points the region's own (its scratch, of which there is none, and the generator
    register); nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point t: the invariant, what the core owes, and the three current staging buffers
    at the contents Y they happen to hold; -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns: the same invariant and debts, each buffer at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X))

/-- The body at any point, on any contents: it runs, and hands the three buffers back. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply (Cert.Kernel.Tile.run c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (k0_pay1 (Y 1) (Y 0)); isplitr; · ipureintro; trivial
    iexact H2

/-- The pipeline's obligation on the body, at every point and on whatever the buffers may hold there. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- From any memory with zero counters every weakly fair execution of the program terminates, and at the end every
    array of the pipeline holds something it may hold after the write-backs and every other unscoped buffer what the
    region found in it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The four arguments end as launched: the bank is an input of the pipeline, never written back to; the queries, the
    weights and the indices bypass the pipeline; and the operation before the region writes none of the four. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((congrFun ((rdat m c).ArrAt_in 1 rfl cfg0.N) _).mp ((h c).1 1)).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Unchanged

end
-- ==== Proof.IdealTile.lean ====
/-
  One grid point of the tiled product, as a program on three staging buffers.

  At a grid point the body reads the whole tile of memory-bank rows (2048 rows of 256 features) from its buffer,
  reads the whole block of 1024 queries from its buffer, and overwrites the whole 1024 by 2048 result buffer with
  one value: the product of the queries with the rounded tile, every row of the tile contracted against every query
  over the 256 features. It reads the result buffer once before the store and uses nothing of what it read. So,
  whatever the three buffers hold, the body runs to the end, leaves the two operand buffers as it found them, and
  leaves in the result buffer that one value of the two operands. This holds for every reading of the floats.
-/
import proofs.«114694_j44504451121873_2_alg».proof.Proof.Gen.KernelIdeal.Frame
import proofs.«114694_j44504451121873_2_alg».proof.Proof.Gen.KernelIdeal.Skeleton
import Idealize.ShloMosaic.Lib.Pipeline.Value

set_option maxRecDepth 16384

noncomputable section

namespace Cert.KernelIdeal.Tile

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole result buffer, as the rectangle the body's one store writes through. -/
abbrev whole2 : Rect S1024x2048 := Rect.unit (s := S1024x2048) ![0, 0] S1024x2048.size inb_S1024x2048_S1024x2048_0_0
/-- The whole tile of bank rows, as the rectangle the body loads through. -/
abbrev whole1 : Rect S2048x256 := Rect.unit (s := S2048x256) ![0, 0] S2048x256.size inb_S2048x256_S2048x256_0_0
/-- The whole block of queries, as the rectangle the body loads through. -/
abbrev whole0 : Rect S1024x256 := Rect.unit (s := S1024x256) ![0, 0] S1024x256.size inb_S1024x256_S1024x256_0_0

/-- The offsets of the three rectangles are zero on both axes. -/
theorem zero_offsets : (![0, 0] : Fin 2 → Nat) = fun _ => 0 := funext fun a => by fin_cases a <;> rfl

/-- What the result buffer holds after the body, as the store leaves it: one piece, the whole buffer, whose value
    is the product of the loaded queries and the loaded tile. -/
def stored (q : Vec F S1024x256 .bf16) (b : Vec F S2048x256 .f32) : Vec F S1024x2048 .f32 :=
  View.canon [⟨whole2, k0_pay1 (View.ld b whole1) (View.ld q whole0)⟩]

/-- The one piece is the whole buffer and the loads are whole, so what the store leaves is the product of the two
    buffers' contents. -/
theorem stored_eq (q : Vec F S1024x256 .bf16) (b : Vec F S2048x256 .f32) : stored q b = k0_pay1 b q := by
  unfold stored
  rw [View.canon_unit_zero zero_offsets]
  rw [View.ld_unit_zero (S := S2048x256) zero_offsets, View.ld_unit_zero (S := S1024x256) zero_offsets]

/-- Every cell of the result buffer lies in the stored piece. -/
theorem stored_covers (p : Vec F S1024x2048 .f32) (y : S1024x2048.Idx) :
    ∃ pc ∈ ([⟨whole2, p⟩] : List (View.Piece (Elt F) S1024x2048 .f32)), y ∈ pc.1.set :=
  ⟨_, List.mem_singleton_self _, View.mem_set_unit_zero zero_offsets inb_S1024x2048_S1024x2048_0_0 y⟩

set_option maxHeartbeats 1000000 in
/-- The body on three whole staging buffers — the queries' at contents q, the tile's at contents b, the result's at
    anything — runs to the end with the first two as they were and the result's at the product of q and b. -/
theorem run (c : Dev nD) (E : Set ℕ) (i : grid0.Coords)
    (arg1 : Memref sig .tc .vmem S1024x256 .bf16) (harg1 : arg1.IsWhole)
    (arg2 : Memref sig .tc .vmem S2048x256 .f32) (harg2 : arg2.IsWhole)
    (arg3 : Memref sig .tc .vmem S1024x2048 .f32) (harg3 : arg3.IsWhole)
    (q : Vec F S1024x256 .bf16) (b : Vec F S2048x256 .f32) (K : PUnit → sProp 𝕄) :
    iprop(owns (c : Thread nD τ) arg1 fullShare q ∗ owns (c : Thread nD τ) arg2 fullShare b ∗ (∃ d, owns (c : Thread nD τ) arg3 fullShare d)
        ∗ (iprop(owns (c : Thread nD τ) arg1 fullShare q ∗ owns (c : Thread nD τ) arg2 fullShare b ∗ owns (c : Thread nD τ) arg3 fullShare (k0_pay1 b q)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (stored_covers _)).trans (stored_eq _ _)

end Cert.KernelIdeal.Tile

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.Spec.lean ====
/-
  The logits of a batch of queries against a memory bank.

  For 1024 queries x of 256 features each and a bank f of 100000 rows of 256 features each, the logit of query p
  against bank row n is the inner product of the two rows, the sum over the 256 features k of x (p, k) f (n, k),
  taken on the extended reals. Both programs of this certificate compute this array.
-/
import Idealize.ShloMosaic.PureOps.Ideal
import Idealize.ShloMosaic.Lib.ValueIdx

noncomputable section

namespace Cert.Logits

open Idealize.ShloMosaic Idealize.ShloMosaic.ValueIdx

/-- The array of inner products of every query with every bank row. -/
def logits (x : FVec Ideal (⟨2, ![1024, 256]⟩ : Shape) .f32) (f : FVec Ideal (⟨2, ![100000, 256]⟩ : Shape) .f32) :
    FVec Ideal (⟨2, ![1024, 100000]⟩ : Shape) .f32 :=
  fun i => ∑ k : Fin 256, x (ix2 (⟨(i 0).val, (i 0).isLt⟩ : Fin 1024) k) * f (ix2 (⟨(i 1).val, (i 1).isLt⟩ : Fin 100000) k)

/-- At the entry of query p and bank row n. -/
theorem logits_ix2 (x : FVec Ideal (⟨2, ![1024, 256]⟩ : Shape) .f32) (f : FVec Ideal (⟨2, ![100000, 256]⟩ : Shape) .f32)
    (p : Fin 1024) (n : Fin 100000) : logits x f (ix2 p n) = ∑ k : Fin 256, x (ix2 p k) * f (ix2 n k) := rfl

end Cert.Logits

end
-- ==== Proof.IdealEntry.lean ====
/-
  One entry of the body's product, over the extended reals.

  The value the body stores is the product of the block of queries with the rounded tile of bank rows, each tile row
  contracted against each query over the 256 features, added into a zero accumulator. Over the extended reals the
  rounding to the narrower format changes nothing, the cast of the queries to their own shape changes nothing, and the
  zero accumulator adds nothing, so the entry at query p and tile row y is the inner product of query p with tile row
  y. In particular that entry reads the tile in its row y and nowhere else.
-/
import proofs.«114694_j44504451121873_2_alg».proof.Proof.Gen.KernelIdeal.Skeleton
import proofs.«114694_j44504451121873_2_alg».proof.Proof.LibMatmulNT
import proofs.«114694_j44504451121873_2_alg».proof.Proof.Spec
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Cert.KernelIdeal.Facts₀
open Idealize.ShloMosaic Idealize.ShloMosaic.ValueIdx

/-- The product's left operand is read at (the entry's row, the contraction index), -/
theorem lhs_row (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl
theorem lhs_contr (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
/-- and its right operand at (the entry's column, the contraction index). -/
theorem rhs_row (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl
theorem rhs_contr (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The stored value at query p and tile row y is the inner product of query p with tile row y. -/
theorem product_entry (b : Vec Ideal S2048x256 .f32) (q : Vec Ideal S1024x256 .bf16) (p : Fin 1024) (y : Fin 2048) :
    k0_pay1 (F := Ideal) b q (ix2 p y) = ∑ k : Fin 256, q (ix2 p k) * b (ix2 y k) := by
  unfold k0_pay1
  refine (Cert.LibMatmulNT.matmul_zero_nt_ix2 dot_S1024x256_S2048x256_S1024x2048_1_1_0_0_n_n rfl rfl
    lhs_row lhs_contr rhs_row rhs_contr none _ _ p y).trans ?_
  refine Finset.sum_congr rfl fun k _ => ?_
  rw [shapeCast_self]
  rfl

/-- So if row p of the loaded queries is row p of an array x, and row y of the loaded tile is row n of an array f, the
    stored value at (p, y) is the logit of x and f at (p, n). -/
theorem product_entry_logit (b : Vec Ideal S2048x256 .f32) (q : Vec Ideal S1024x256 .bf16)
    (x : FVec Ideal (⟨2, ![1024, 256]⟩ : Shape) .f32) (f : FVec Ideal (⟨2, ![100000, 256]⟩ : Shape) .f32)
    (p : Fin 1024) (y : Fin 2048) (n : Fin 100000)
    (hq : ∀ k : Fin 256, q (ix2 p k) = x (ix2 p k)) (hb : ∀ k : Fin 256, b (ix2 y k) = f (ix2 n k)) :
    k0_pay1 (F := Ideal) b q (ix2 p y) = Cert.Logits.logits x f (ix2 p n) := by
  rw [product_entry, Cert.Logits.logits_ix2]
  exact Finset.sum_congr rfl fun k _ => by rw [hq k, hb k]

end Cert.KernelIdeal.Entry

end
-- ==== Proof.IdealData.lean ====
/-
  The idealized kernel, point by point: what its buffers hold, and what its run leaves.

  The grid has 49 points. At point t the pipeline hands the body: the whole block of rounded queries (fetched once, at
  the first point, and kept); the tile of bank rows 2048 t up to 2048 t + 2047, of which only the rows below 100000
  are the bank's and the rest — at the last point, rows 1696 and up of the buffer — are whatever the buffer held; and
  a result buffer holding anything. The body stores the product of queries and tile. At column y of the result buffer
  that is the inner product of a query with tile row y alone, so on the columns y whose bank row 2048 t + y exists it
  is the logit of that query against that bank row, whatever the buffer's tail held. Those are the columns the
  write-back moves. So every point writes back its block of ONE array, the logits of the launch arrays.
-/
import proofs.«114694_j44504451121873_2_alg».proof.Proof.IdealTile
import proofs.«114694_j44504451121873_2_alg».proof.Proof.IdealEntry
import proofs.«114694_j44504451121873_2_alg».proof.Proof.Spec
import proofs.«114694_j44504451121873_2_alg».proof.Proof.Gen.KernelIdeal.Frame
import proofs.«114694_j44504451121873_2_alg».proof.Proof.Gen.KernelIdeal.Launch
import proofs.«114694_j44504451121873_2_alg».proof.Proof.Gen.KernelIdeal.Points
import Idealize.ShloMosaic.Lib.Pipeline.Frame
import Idealize.ShloMosaic.Lib.Pipeline.Kit
import Idealize.ShloMosaic.Lib.Pipeline.Value
import Idealize.ShloMosaic.Lib.StableHlo.Run

set_option maxRecDepth 16384

noncomputable section

namespace Cert.KernelIdeal.Bank

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The array the run leaves -/

/-- The logits of the launch queries against the launch bank, as the result array's contents on core c. -/
def result (c : Dev nD) : Buf (Elt Ideal) ((c : Thread nD τ).loc main_v1) :=
  Cert.Logits.logits (m ((c : Thread nD τ).loc main_arg0)) (m ((c : Thread nD τ).loc main_arg1))

/-! ## Where the blocks lie -/

/-- The blocks at a point, decided over the grid: the queries' block is the whole array; the bank's tile starts at row
    2048 t and spans all 256 features; the result's block starts at column 2048 t and spans all 1024 queries; the
    result's block is as wide as the bank's tile is tall, which is 2048 or, at the array's end, what is left of the
    100000. -/
theorem point_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 1024
    ∧ win0_2.xsize (grid0.coords t) (1 : Fin 2) = win0_1.xsize (grid0.coords t) (0 : Fin 2)
    ∧ win0_1.xsize (grid0.coords t) (1 : Fin 2) = 256
    ∧ win0_1.xsize (grid0.coords t) (0 : Fin 2) = min 2048 (100000 - t.val * 2048)
    ∧ t.val * 2048 < 100000 :=
  (by decide +kernel : ∀ t : Fin grid0.N, _)

/-- The region finds the rounded copy of the queries in the pipeline's first array: over the extended reals, the
    queries themselves. -/
theorem rounded_queries (c : Dev nD) :
    (V m c main_v0 : S1024x256.Idx → EReal) = truncf (F := Ideal) .bf16 (m ((c : Thread nD τ).loc main_arg0)) bitsLt_bf16_f32 := by
  dsimp only [Gen.V, Gen.hostOps0]; after_results

/-- The queries' block at any point, read at (p, k), is the launch queries' entry (p, k). -/
theorem queries_at (c : Dev nD) (t : Fin cfg0.N) (p : Fin 1024) (k : Fin 256) :
    iblk (F := Ideal) m c 0 t (ix2 p k) = m ((c : Thread nD τ).loc main_arg0) (ix2 p k) := by
  show (V m c main_v0 : S1024x256.Idx → EReal) ((win0_0.blk t).view.emb (ix2 p k)) = _
  have he : (win0_0.blk t).view.emb (ix2 p k) = ix2 p k := by
    obtain ⟨e00, e01, -⟩ := point_facts t
    funext a; apply Fin.ext
    match a with
    | ⟨0, _⟩ => show win0_0.index t (0 : Fin 2) * 1024 + 1 * p.val = p.val; omega
    | ⟨1, _⟩ => show win0_0.index t (1 : Fin 2) * 256 + 1 * k.val = k.val; omega
  rw [he, rounded_queries]; rfl

/-- The bank's tile at point t, read at a cell the fetch filled, is the launch bank's entry in row 2048 t plus the
    cell's row. -/
theorem bank_at (c : Dev nD) (t : Fin cfg0.N) (j : (win0_1.xblock (grid0.coords t)).Idx) (n : Fin 100000) (k : Fin 256)
    (hn : n.val = t.val * 2048 + (j 0).val) (hk : k.val = (j 1).val) :
    iblk (F := Ideal) m c 1 t j = m ((c : Thread nD τ).loc main_arg1) (ix2 n k) := by
  show V m c main_arg1 ((win0_1.blk t).view.emb j) = _
  rw [V_main_arg1]
  refine congrArg (m ((c : Thread nD τ).loc main_arg1)) ?_
  obtain ⟨-, -, e10, e11, -⟩ := point_facts t
  funext a; apply Fin.ext
  match a with
  | ⟨0, _⟩ => show win0_1.index t (0 : Fin 2) * 2048 + 1 * (j 0).val = n.val; omega
  | ⟨1, _⟩ => show win0_1.index t (1 : Fin 2) * 256 + 1 * (j 1).val = k.val; omega

/-! ## The proof data -/

/-- After the body at point t: the queries' buffer at the queries' block; the tile's buffer at the tile's rows inside
    the bank (past them the obligation says nothing: any filler); the result's buffer, on the columns the write-back
    moves, at block t of the logits. The invariant between points is the region's own; nothing is owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => (0 : EReal)) (iblk m c 1 t) := by dsimp only [dats]
theorem after2 (c : Dev nD) (t : Fin cfg0.N) :
    (dats m 0 c).after 2 t = win0_2.fill (grid0.coords t) (fun _ => (0 : EReal)) ((win0_2.blk t).view.read (Elt Ideal) (result m c)) := by
  dsimp only [dats]

/-- The queries' buffer holds the queries' block at every point: fetched at the first, kept since. -/
theorem before0 (c : Dev nD) (t : Fin cfg0.N) (d) : (dats m 0 c).before 0 t d = iblk m c 0 t :=
  before0_0_of m (dats m 0 c) (A_eq m c 0) (after0 m c) t d
/-- The tile's buffer is fetched at every point: the tile's rows inside the bank, and d past them. -/
theorem before1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]
/-- The result's buffer was written back at the point before, or never used: it holds anything. -/
theorem before2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

/-! ## One tile of the logits -/

/-- THE TILE. Whatever the tile's buffer holds past the bank's end, the product of the queries' block with it, on the
    columns the write-back at point t moves, is block t of the logits. -/
theorem tile_eq (c : Dev nD) (t : Fin cfg0.N) (d : S2048x256.Idx → EReal) :
    win0_2.cut (grid0.coords t) (k0_pay1 (F := Ideal) (win0_1.fill (grid0.coords t) d (iblk m c 1 t)) (iblk m c 0 t))
      = (win0_2.blk t).view.read (Elt Ideal) (result m c) := by
  funext j
  obtain ⟨-, -, -, -, e20, e21, s20, s21, s11, s10, hlt⟩ := point_facts t
  have hj0 : (j 0).val < win0_2.xsize (grid0.coords t) (0 : Fin 2) := (j 0).isLt
  have hj1 : (j 1).val < win0_2.xsize (grid0.coords t) (1 : Fin 2) := (j 1).isLt
  obtain ⟨p, hp⟩ : ∃ p : Fin 1024, p.val = (j 0).val := ⟨⟨(j 0).val, by omega⟩, rfl⟩
  obtain ⟨y, hy⟩ : ∃ y : Fin 2048, y.val = (j 1).val := ⟨⟨(j 1).val, by omega⟩, rfl⟩
  obtain ⟨n, hn⟩ : ∃ n : Fin 100000, n.val = t.val * 2048 + (j 1).val := ⟨⟨t.val * 2048 + (j 1).val, by omega⟩, rfl⟩
  show k0_pay1 (F := Ideal) (win0_1.fill (grid0.coords t) d (iblk m c 1 t)) (iblk m c 0 t) (win0_2.xinj (grid0.coords t) j)
    = result m c ((win0_2.blk t).view.emb j)
  have hx : win0_2.xinj (grid0.coords t) j = ix2 p y :=
    funext fun a => Fin.ext (by match a with | ⟨0, _⟩ => exact hp.symm | ⟨1, _⟩ => exact hy.symm)
  have hb : (win0_2.blk t).view.emb j = ix2 p n := by
    funext a; apply Fin.ext
    match a with
    | ⟨0, _⟩ => show win0_2.index t (0 : Fin 2) * 1024 + 1 * (j 0).val = p.val; omega
    | ⟨1, _⟩ => show win0_2.index t (1 : Fin 2) * 2048 + 1 * (j 1).val = n.val; omega
  rw [hx, hb]
  refine Cert.KernelIdeal.Entry.product_entry_logit _ _ _ _ p y n (fun k => queries_at m c t p k) (fun k => ?_)
  -- row y of the tile's buffer was filled by the fetch: it is bank row n
  have hyk0 : y.val < win0_1.xsize (grid0.coords t) (0 : Fin 2) := by omega
  have hyk1 : k.val < win0_1.xsize (grid0.coords t) (1 : Fin 2) := by have := k.isLt; omega
  obtain ⟨j', hj'0, hj'1⟩ : ∃ j' : (win0_1.xblock (grid0.coords t)).Idx, (j' 0).val = y.val ∧ (j' 1).val = k.val :=
    ⟨fun a => match a with | ⟨0, _⟩ => ⟨y.val, hyk0⟩ | ⟨1, _⟩ => ⟨k.val, hyk1⟩, rfl, rfl⟩
  have e : ix2 y k = win0_1.xinj (grid0.coords t) j' :=
    funext fun a => Fin.ext (by match a with | ⟨0, _⟩ => exact hj'0.symm | ⟨1, _⟩ => exact hj'1.symm)
  rw [e, Window.fill_xinj]
  exact bank_at m c t j' n k (by omega) hj'1.symm

/-! ## What the obligation asks of the two cut windows -/

/-- The tile's buffer, stated on the part its fetch moved: the tile's rows inside the bank, and past them whatever d
    holds. -/
theorem tile_left (c : Dev nD) (t : Fin cfg0.N) (d : (cfg0.win 1).block.Idx → Elt Ideal (cfg0.win 1).elt) :
    (cfg0.win 1).fill (cfg0.grid.coords t) d ((cfg0.win 1).cut (cfg0.grid.coords t) ((dats m 0 c).after 1 t))
      = win0_1.fill (grid0.coords t) d (iblk m c 1 t) := by
  rw [after1]
  show win0_1.fill (grid0.coords t) d (win0_1.cut (grid0.coords t) (win0_1.fill (grid0.coords t) (fun _ => (0 : EReal)) (iblk m c 1 t))) = _
  rw [Window.cut_fill]

/-- Contents X of the result's buffer that agree with block t of the logits on the columns the write-back moves are,
    as the obligation states them, X. -/
theorem result_left (c : Dev nD) (t : Fin cfg0.N) (X : (cfg0.win 2).block.Idx → Elt Ideal (cfg0.win 2).elt)
    (h : win0_2.cut (grid0.coords t) X = (win0_2.blk t).view.read (Elt Ideal) (result m c)) :
    (cfg0.win 2).fill (cfg0.grid.coords t) X ((cfg0.win 2).cut (cfg0.grid.coords t) ((dats m 0 c).after 2 t)) = X := by
  rw [after2]
  show win0_2.fill (grid0.coords t) X (win0_2.cut (grid0.coords t) (win0_2.fill (grid0.coords t) (fun _ => (0 : EReal)) ((win0_2.blk t).view.read (Elt Ideal) (result m c)))) = X
  rw [Window.cut_fill, ← h, Window.fill_cut]

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the queries' buffer as named; the tile's and the result's as named on the part their transfers
    move, and anything elsewhere. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0]
  iintro ⟨HΦ, Ho, ⟨%d0, H0⟩, ⟨%d1, H1⟩, ⟨%d2, H2⟩⟩
  iapply (Cert.KernelIdeal.Tile.run c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [tile_left m c t d1]
    try iexact H1
  · iexists (k0_pay1 (F := Ideal) (win0_1.fill (grid0.coords t) d1 (iblk m c 1 t)) (iblk m c 0 t))
    rw [result_left m c t _ (tile_eq m c t d1)]
    try iexact H2

/-- The pipeline's obligation on the body, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- From any memory with zero counters every weakly fair execution terminates; every array of the pipeline ends at what
    the write-backs of the proof data make of it, every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Bank

end
-- ==== Proof.IdealValue.lean ====
/-
  The result array after the run of the idealized kernel is the logits.

  Every grid point writes back, on the columns inside the array, its block of one array — the logits of the launch
  queries against the launch bank. Point t's block is all 1024 rows and the columns from 2048 t up to 2048 t + 2047,
  cut at column 100000. Column n lies in the block of point n / 2048: the 49 points' blocks cover the array. So after
  the last write-back the result array holds the logits, and the four arguments hold what they held.
-/
import proofs.«114694_j44504451121873_2_alg».proof.Proof.IdealData
import Idealize.ShloMosaic.Lib.Pipeline.Value

set_option maxRecDepth 16384

noncomputable section

namespace Cert.KernelIdeal.Bank

open Cert.KernelIdeal Cert.KernelIdeal.Gen

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What point t writes back is block t of the logits. -/
theorem flushed_eq (c : Dev nD) (t : Fin cfg0.N) :
    (dats m 0 c).flushed 2 t = ((cfg0.win 2).blk t).view.read (Elt Ideal) (result m c) := by
  show (cfg0.win 2).cut (cfg0.grid.coords t) ((dats m 0 c).after 2 t) = _
  rw [after2]
  exact Window.cut_fill _ _ _ _

/-- An index of the result array is in point t's block iff, on each axis, it is at or past the block's start and
    before the block's end as cut at the array's end. -/
theorem mem_blk (t : Fin cfg0.N) (i : S1024x100000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v1).slice (win0_2.rect t)).set ↔ _
  rw [View.set_slice_whole, Rect.mem_set_unit]
  exact Iff.rfl

/-- Every index of the result array is in the block of the point its column divided by 2048 names. -/
theorem covered (i : S1024x100000.Idx) :
    ∃ t : Fin cfg0.N, (cfg0.win 2).flush t = true ∧ i ∈ ((cfg0.win 2).blk t).view.set := by
  have hi0 : (i 0).val < 1024 := (i 0).isLt
  have hi1 : (i 1).val < 100000 := (i 1).isLt
  have hN : grid0.N = 49 := N_0
  obtain ⟨t, ht⟩ : ∃ t : Fin cfg0.N, t.val = (i 1).val / 2048 :=
    ⟨⟨(i 1).val / 2048, by show (i 1).val / 2048 < grid0.N; omega⟩, rfl⟩
  obtain ⟨-, -, -, -, e20, e21, s20, s21, s11, s10, hlt⟩ := point_facts t
  refine ⟨t, flush0_2 t, ?_⟩
  rw [mem_blk]
  intro a
  match a with
  | ⟨0, _⟩ =>
    show win0_2.index t (0 : Fin 2) * 1024 ≤ (i 0).val
      ∧ (i 0).val < win0_2.index t (0 : Fin 2) * 1024 + win0_2.xsize (grid0.coords t) (0 : Fin 2)
    omega
  | ⟨1, _⟩ =>
    show win0_2.index t (1 : Fin 2) * 2048 ≤ (i 1).val
      ∧ (i 1).val < win0_2.index t (1 : Fin 2) * 2048 + win0_2.xsize (grid0.coords t) (1 : Fin 2)
    omega

/-- THE RESULT ARRAY after the last write-back: the logits. -/
theorem final (c : Dev nD) : (dats m 0 c).arrAt 2 cfg0.N = result m c :=
  (dats m 0 c).arrAt_eq_of_cover 2 (result m c) (fun t _ => flushed_eq m c t) covered

/-- The run, read: every weakly fair execution terminates with the result array at the logits of the launch arrays and
    the four arguments as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

/-- The frame of the idealized kernel: the same run, read at the arguments. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Bank

end
-- ==== Proof.RefLogits.lean ====
/-
  The reference computes the logits.

  The reference transposes the bank to 256 by 100000 and multiplies the queries by it, contracting the queries'
  feature axis with the transposed bank's first axis. Read at the entry of query p and bank row n, that product is the
  sum over the 256 features k of the query's entry (p, k) times the transposed bank's entry (k, n), which is the bank's
  entry (n, k): the inner product of query p with bank row n.
-/
import proofs.«114694_j44504451121873_2_alg».proof.Proof.Gen.ReferenceIdeal.Read
import proofs.«114694_j44504451121873_2_alg».proof.Proof.Spec

noncomputable section

namespace Cert.ReferenceIdeal.Logits

open Cert.ReferenceIdeal Cert.ReferenceIdeal.Read
open Idealize.ShloMosaic Idealize.ShloMosaic.ValueIdx

/-- The reference's product of the queries with the transposed bank is the array of inner products. -/
theorem reference_eq (x : (⟨S1024x256, .f32⟩ : BufTy).Contents (Elt Ideal)) (f : (⟨S100000x256, .f32⟩ : BufTy).Contents (Elt Ideal)) :
    val_main_v1 (F := Ideal) x f = Cert.Logits.logits x f := by
  funext i
  rw [val_main_v1_apply]
  unfold Cert.Logits.logits
  refine Finset.sum_congr rfl fun k _ => ?_
  rw [val_main_v0_apply]
  have el : lidx_main_v1 i k = ix2 (⟨(i 0).val, (i 0).isLt⟩ : Fin 1024) k :=
    funext fun a => Fin.ext (by match a with | ⟨0, _⟩ => rfl | ⟨1, _⟩ => rfl)
  have er : idx_main_v0 (ridx_main_v1 i k) = ix2 (⟨(i 1).val, (i 1).isLt⟩ : Fin 100000) k :=
    funext fun a => Fin.ext (by match a with | ⟨0, _⟩ => rfl | ⟨1, _⟩ => rfl)
  rw [el, er]

end Cert.ReferenceIdeal.Logits

end
-- ==== Proof.lean ====
/-
  A tiled inner-product kernel against a plain matrix product.

  The kernel computes the logits of 1024 queries against a memory bank of 100000 rows, 256 features each: it rounds
  the queries once, then walks the bank in 49 tiles of 2048 rows, and at each tile multiplies the queries by the
  rounded tile, contracting the feature axis, and writes the 1024 by 2048 block of products to its columns of the
  result. The last tile has only 1696 rows inside the bank; the rest of its buffer holds words nothing names, the
  products computed from them land in columns past the result's end, and the write-back moves only the columns inside.
  The reference transposes the bank and multiplies the queries by it.

  Over the extended reals rounding is the identity and a product into a zero accumulator is the sum of the products,
  so both programs leave the same array: at query p and bank row n, the sum over the features k of query (p, k) times
  bank (n, k), with the factors in the same order on both sides. No finiteness of the inputs is used.

  The three frames: the word-level kernel's body runs whatever its buffers hold, and nothing it does touches an
  argument array; the idealized kernel's frame is its value run read at the arguments; the reference's is its run with
  the result dropped. The idealization rewrote no operation, so there is nothing to preserve.
-/
import proofs.«114694_j44504451121873_2_alg».proof.Defs
import proofs.«114694_j44504451121873_2_alg».proof.Proof.Gen.Kernel
import proofs.«114694_j44504451121873_2_alg».proof.Proof.Gen.KernelIdeal
import proofs.«114694_j44504451121873_2_alg».proof.Proof.Gen.ReferenceIdeal
import proofs.«114694_j44504451121873_2_alg».proof.Proof.Gen.ReferenceIdeal.Run
import proofs.«114694_j44504451121873_2_alg».proof.Proof.Gen.ReferenceIdeal.Read
import proofs.«114694_j44504451121873_2_alg».proof.Proof.Gen.Pre_finite_inputs
import proofs.«114694_j44504451121873_2_alg».proof.Proof.KernelFrame
import proofs.«114694_j44504451121873_2_alg».proof.Proof.IdealValue
import proofs.«114694_j44504451121873_2_alg».proof.Proof.RefLogits
import Idealize.ShloMosaic.Adequacy
import Idealize.ShloMosaic.Init

noncomputable section

namespace Cert.Proof

open Idealize.ShloMosaic Idealize.SL.Sem

/-- The word-level kernel terminates, faults nowhere, and leaves its arguments unchanged. -/
theorem frame_kernel : Cert.frame_Kernel := fun m ρ _ => Cert.Kernel.Unchanged.frame (F := Bits) m ρ

/-- So does the idealized kernel. -/
theorem frame_kernel_ideal : Cert.frame_KernelIdeal := fun m ρ _ => Cert.KernelIdeal.Bank.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the result array at the logits of the
    queries against the bank. -/
theorem algebraic : Cert.algebraic_KernelIdeal_ReferenceIdeal := by
  intro m ρ m' ρ' _ hagree
  refine ⟨fun c => Cert.KernelIdeal.Bank.result m c, Cert.KernelIdeal.Bank.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Logits.reference_eq, (hagree c).1, (hagree c).2.1]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
